-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x98304 : Shape := ⟨2, ![2048, 98304]⟩
abbrev S256x98304 : Shape := ⟨2, ![256, 98304]⟩
abbrev S256 : Shape := ⟨1, ![256]⟩
abbrev S32x256 : Shape := ⟨2, ![32, 256]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S2048x98304 : S_.BroadcastsInDim S2048x98304 (![] : Fin 0 → Fin S2048x98304.rank)
  reducesTo_S2048x98304_S_d0_1 : S2048x98304.ReducesTo [0, 1] S_
  h_S_ : 0 < S_.numel
  bcast_S_S256x98304 : S_.BroadcastsInDim S256x98304 (![] : Fin 0 → Fin S256x98304.rank)
  reducesTo_S256x98304_S_d0_1 : S256x98304.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S32 .f32) (main_arg5 : FVec F S1x32 .f32) (main_arg6 : FVec F S1 .f32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x32 .f32 := Host.absf main_arg5
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2048x98304 .f32) (main_arg1 : FVec F S256x98304 .f32) (main_arg2 : FVec F S256 .f32) (main_arg3 : FVec F S32x256 .f32) (main_arg4 : FVec F S32 .f32) (main_arg5 : FVec F S1x32 .f32) (main_arg6 : FVec F S1 .f32) : IVec S_ 1 :=
  let main_v0 : FVec F S2048x98304 .f32 := Host.absf main_arg0
  let main_cst : FVec F S_ .f32 := constant S_ .f32 0x7F800000#32
  let main_v1 : FVec F S2048x98304 .f32 := broadcastInDim S2048x98304 ![] bcast_S_S2048x98304 main_cst
  let main_v2 : IVec S2048x98304 1 := cmpf .olt main_v0 main_v1
  let main_c : IVec S_ 1 := constantI S_ 1 1#1
  let main_v3 : IVec S_ 1 := (fun x v => Host.reduce IntOp.andi x v reducesTo_S2048x98304_S_d0_1 h_S_) main_v2 main_c
  let main_v4 : FVec F S256x98304 .f32 := Host.absf main_arg1
  let main_cst_0 : FVec F S_ .f32 := constant S_ .f32 0x7F800000#32
  let main_v5 : FVec F S256x98304 .f32 := broadcastInDim S256x98304 ![] bcast_S_S256x98304 main_cst_0
  let main_v6 : IVec S256x98304 1 := cmpf .olt main_v4 main_v5
  let main_c_1 : IVec S_ 1 := constantI S_ 1 1#1
  let main_v7 : IVec S_ 1 := (fun x v => Host.reduce IntOp.andi x v reducesTo_S256x98304_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg4 main_arg5 main_arg6 main_v13 main_v16
-- ==== Kernel.lean ====
abbrev S2048x98304 : Shape := ⟨2, ![2048, 98304]⟩
abbrev S256x98304 : Shape := ⟨2, ![256, 98304]⟩
abbrev S256 : Shape := ⟨1, ![256]⟩
abbrev S32x256 : Shape := ⟨2, ![32, 256]⟩
abbrev S32 : Shape := ⟨1, ![32]⟩
abbrev S1x32 : Shape := ⟨2, ![1, 32]⟩
abbrev S1 : Shape := ⟨1, ![1]⟩
abbrev S1x256 : Shape := ⟨2, ![1, 256]⟩
abbrev S1x1 : Shape := ⟨2, ![1, 1]⟩
abbrev S2048x1 : Shape := ⟨2, ![2048, 1]⟩
abbrev S1024x4096 : Shape := ⟨2, ![1024, 4096]⟩
abbrev S256x4096 : Shape := ⟨2, ![256, 4096]⟩
abbrev S1024x1 : Shape := ⟨2, ![1024, 1]⟩
abbrev S1024x256 : Shape := ⟨2, ![1024, 256]⟩
abbrev S4096x256 : Shape := ⟨2, ![4096, 256]⟩
abbrev S256x32 : Shape := ⟨2, ![256, 32]⟩
abbrev S1024x32 : Shape := ⟨2, ![1024, 32]⟩
abbrev S32x1 : Shape := ⟨2, ![32, 1]⟩

abbrev nBuf : Space → Nat
  | .hbm => 11
  | .vmem => 12
  | .smem => 0
  | _ => 0

abbrev bufTy : (tb : Table) → Fin (tcTables nBuf tb) → BufTy
  | .hbm, ⟨0, _⟩ => ⟨S2048x98304, .f32⟩
  | .hbm, ⟨1, _⟩ => ⟨S256x98304, .f32⟩
  | .hbm, ⟨2, _⟩ => ⟨S256, .f32⟩
  | .hbm, ⟨3, _⟩ => ⟨S32x256, .f32⟩
  | .hbm, ⟨4, _⟩ => ⟨S32, .f32⟩
  | .hbm, ⟨5, _⟩ => ⟨S1x32, .f32⟩
  | .hbm, ⟨6, _⟩ => ⟨S1, .f32⟩
  | .hbm, ⟨7, _⟩ => ⟨S1x256, .f32⟩
  | .hbm, ⟨8, _⟩ => ⟨S1x32, .f32⟩
  | .hbm, ⟨9, _⟩ => ⟨S1x1, .f32⟩
  | .hbm, ⟨10, _⟩ => ⟨S2048x1, .f32⟩
  | .local _ .vmem, ⟨0, _⟩ => ⟨S1024x4096, .f32⟩
  | .local _ .vmem, ⟨1, _⟩ => ⟨S1024x4096, .f32⟩
  | .local _ .vmem, ⟨2, _⟩ => ⟨S256x4096, .f32⟩
  | .local _ .vmem, ⟨3, _⟩ => ⟨S256x4096, .f32⟩
  | .local _ .vmem, ⟨4, _⟩ => ⟨S1x256, .f32⟩
  | .local _ .vmem, ⟨5, _⟩ => ⟨S32x256, .f32⟩
  | .local _ .vmem, ⟨6, _⟩ => ⟨S1x32, .f32⟩
  | .local _ .vmem, ⟨7, _⟩ => ⟨S1x32, .f32⟩
  | .local _ .vmem, ⟨8, _⟩ => ⟨S1x1, .f32⟩
  | .local _ .vmem, ⟨9, _⟩ => ⟨S1024x1, .f32⟩
  | .local _ .vmem, ⟨10, _⟩ => ⟨S1024x1, .f32⟩
  | .local _ .vmem, ⟨11, _⟩ => ⟨S1024x256, .f32⟩
  | _, _ => ⟨S2048x98304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v14 : BitVec 1 := Scalar.cmpi .eq arg1 c23_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S256_S1x256 : S256.ShapeCasts S1x256
  shapeCasts_S32_S1x32 : S32.ShapeCasts S1x32
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  transposes_S256x4096_p1_0_S4096x256 : S256x4096.Transposes [1, 0] S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S32x256_S32x256_0_0 : ∀ a, (![0, 0] : Fin 2 → Nat) a + S32x256.size a ≤ S32x256.size a
  h_S32x256 : 0 < S32x256.numel
  transposes_S32x256_p1_0_S256x32 : S32x256.Transposes [1, 0] S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  transposes_S1x32_p1_0_S32x1 : S1x32.Transposes [1, 0] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x4096_S4096x256_S1024x256_1_0_0_1_n_n_wf : DotDims.WF S1024x4096 S4096x256 S1024x256 [1] [0] [0] [1] [] []
  dot_S1024x256_S256x32_S1024x32_1_0_0_1_n_n_wf : DotDims.WF S1024x256 S256x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S2048x98304.size a
  hwx0_0 : ∀ i : grid0.Coords, EltTy.bits .f32 = 32 ∨ (Rect.block (s := S2048x98304) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x98304.size a
  hwx0_1 : ∀ i : grid0.Coords, EltTy.bits .f32 = 32 ∨ (Rect.block (s := S256x98304) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S2048x1.size a
  hwx0_7 : ∀ i : grid0.Coords, EltTy.bits .f32 = 32 ∨ (Rect.block (s := S2048x1) S1024x1.size (cc0_transform_7 i) (hinb0_7 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2048x98304 : Shape := ⟨2, ![2048, 98304]⟩
abbrev S256x98304 : Shape := ⟨2, ![256, 98304]⟩
abbrev S256 : Shape := ⟨1, ![256]⟩
abbrev S32x256 : Shape := ⟨2, ![32, 256]⟩
abbrev S32 : Shape := ⟨1, ![32]⟩
abbrev S1x32 : Shape := ⟨2, ![1, 32]⟩
abbrev S1 : Shape := ⟨1, ![1]⟩
abbrev S98304x256 : Shape := ⟨2, ![98304, 256]⟩
abbrev S2048x256 : Shape := ⟨2, ![2048, 256]⟩
abbrev S1x256 : Shape := ⟨2, ![1, 256]⟩
abbrev S_ : Shape := ⟨0, ![]⟩
abbrev S256x32 : Shape := ⟨2, ![256, 32]⟩
abbrev S2048x32 : Shape := ⟨2, ![2048, 32]⟩
abbrev S32x1 : Shape := ⟨2, ![32, 1]⟩
abbrev S2048x1 : Shape := ⟨2, ![2048, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S2048x98304, .f32⟩
  | .hbm, ⟨1, _⟩ => ⟨S256x98304, .f32⟩
  | .hbm, ⟨2, _⟩ => ⟨S256, .f32⟩
  | .hbm, ⟨3, _⟩ => ⟨S32x256, .f32⟩
  | .hbm, ⟨4, _⟩ => ⟨S32, .f32⟩
  | .hbm, ⟨5, _⟩ => ⟨S1x32, .f32⟩
  | .hbm, ⟨6, _⟩ => ⟨S1, .f32⟩
  | .hbm, ⟨7, _⟩ => ⟨S98304x256, .f32⟩
  | .hbm, ⟨8, _⟩ => ⟨S2048x256, .f32⟩
  | .hbm, ⟨9, _⟩ => ⟨S1x256, .f32⟩
  | .hbm, ⟨10, _⟩ => ⟨S2048x256, .f32⟩
  | .hbm, ⟨11, _⟩ => ⟨S2048x256, .f32⟩
  | .hbm, ⟨12, _⟩ => ⟨S_, .f32⟩
  | .hbm, ⟨13, _⟩ => ⟨S2048x256, .f32⟩
  | .hbm, ⟨14, _⟩ => ⟨S2048x256, .f32⟩
  | .hbm, ⟨15, _⟩ => ⟨S256x32, .f32⟩
  | .hbm, ⟨16, _⟩ => ⟨S2048x32, .f32⟩
  | .hbm, ⟨17, _⟩ => ⟨S1x32, .f32⟩
  | .hbm, ⟨18, _⟩ => ⟨S2048x32, .f32⟩
  | .hbm, ⟨19, _⟩ => ⟨S2048x32, .f32⟩
  | .hbm, ⟨20, _⟩ => ⟨S_, .f32⟩
  | .hbm, ⟨21, _⟩ => ⟨S2048x32, .f32⟩
  | .hbm, ⟨22, _⟩ => ⟨S2048x32, .f32⟩
  | .hbm, ⟨23, _⟩ => ⟨S32x1, .f32⟩
  | .hbm, ⟨24, _⟩ => ⟨S2048x1, .f32⟩
  | .hbm, ⟨25, _⟩ => ⟨S1x1, .f32⟩
  | .hbm, ⟨26, _⟩ => ⟨S2048x1, .f32⟩
  | .hbm, ⟨27, _⟩ => ⟨S2048x1, .f32⟩
  | _, _ => ⟨S2048x98304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S256x98304_S98304x256_1_0 : S256x98304.Transposes [1, 0] S98304x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  transposes_S32x256_S256x32_1_0 : S32x256.Transposes [1, 0] S256x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S1x32_S32x1_1_0 : S1x32.Transposes [1, 0] S32x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S2048x98304_S98304x256_S2048x256_1_0_0_1_n_n_wf : DotDims.WF S2048x98304 S98304x256 S2048x256 [1] [0] [0] [1] [] []
  dot_S2048x256_S256x32_S2048x32_1_0_0_1_n_n_wf : DotDims.WF S2048x256 S256x32 S2048x32 [1] [0] [0] [1] [] []
  dot_S2048x32_S32x1_S2048x1_1_0_0_1_n_n_wf : DotDims.WF S2048x32 S32x1 S2048x1 [1] [0] [0] [1] [] []

variable [Facts₀]

def dot_S2048x98304_S98304x256_S2048x256_1_0_0_1_n_n : DotDims S2048x98304 S98304x256 S2048x256 where
  lhsContracting := [1]
  rhsContracting := [0]
  lhsNonContracting := [0]
  rhsNonContracting := [1]
  lhsBatch := []
  rhsBatch := []
  wf := dot_S2048x98304_S98304x256_S2048x256_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.Pieces.lean ====
/-
  What one grid point leaves behind, as plain functions of what it loaded.

  At every point the body adds, to the running matrix it keeps between points, the product of the point's
  block of inputs with the transposed block of first-layer weights; at the first point of a row block the
  running matrix is first set to zero, so what is left there is "zero plus the product". At the last point of a
  row block the body also stores the network's output for the row block, computed from the running matrix it
  has just updated. Each of the four facts below says that the buffer's final contents are exactly that one
  expression of the loaded blocks: every store writes the whole buffer, so the last store decides the contents,
  and every load reads a whole buffer, so it reads the contents.
-/
import proofs.«168163_j68685116998140_1_alg».proof.Proof.Gen.KernelIdeal.Frame
import Idealize.ShloMosaic.Lib.Pipeline.Value
import Idealize.ShloMosaic.Lib.Tactic

set_option maxRecDepth 16384

noncomputable section
namespace Cert.KernelIdeal.Pieces
open Cert.KernelIdeal Cert.KernelIdeal.Gen
open Idealize.ShloMosaic Idealize.ShloMosaic.TcCoe Idealize.ShloMosaic.Tactic Idealize.SL.Sem

variable {F : FTy → Type} [FloatOps F]

/-- The offset of a rectangle that starts at the origin. -/
theorem origin : (![0, 0] : Fin 2 → Nat) = fun _ => 0 := funext fun a => by fin_cases a <;> rfl

/-- At a middle point of a row block the running matrix becomes the old one plus the point's block product. -/
theorem scratch_B (c : Dev nD) (i : grid0.Coords) (arg2 : Memref sig .tc .vmem S1024x4096 .f32) (harg2 : arg2.IsWhole) (arg3 : Memref sig .tc .vmem S256x4096 .f32) (harg3 : arg3.IsWhole) (arg4 : Memref sig .tc .vmem S1x256 .f32) (harg4 : arg4.IsWhole) (arg5 : Memref sig .tc .vmem S32x256 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : ¬cond0_1 i) (x0 : Vec F S1024x4096 .f32) (x1 : Vec F S256x4096 .f32) (x2 : Vec F S1x256 .f32) (x3 : Vec F S32x256 .f32) (x4 : Vec F S1x32 .f32) (x5 : Vec F S1x32 .f32) (x6 : Vec F S1x1 .f32) (xs0 : Vec F S1024x256 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero origin]
  simp only [View.readAt_eq_ld, harg2.read_unread, harg3.read_unread, harg10.read_unread,
    View.ld_unit_zero (S := S1024x4096) origin, View.ld_unit_zero (S := S256x4096) origin, View.ld_unit_zero (S := S1024x256) origin]

/-- At the first point of a row block the running matrix becomes zero plus the point's block product: the
    zero matrix is stored first, read back, and the product added to it. -/
theorem scratch_A (c : Dev nD) (i : grid0.Coords) (arg2 : Memref sig .tc .vmem S1024x4096 .f32) (harg2 : arg2.IsWhole) (arg3 : Memref sig .tc .vmem S256x4096 .f32) (harg3 : arg3.IsWhole) (arg4 : Memref sig .tc .vmem S1x256 .f32) (harg4 : arg4.IsWhole) (arg5 : Memref sig .tc .vmem S32x256 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x1 .f32) (harg8 : arg8.IsWhole) (arg9 : Memref sig .tc .vmem S1024x1 .f32) (harg9 : arg9.IsWhole) (arg10 : Memref sig .tc .vmem S1024x256 .f32) (harg10 : arg10.IsWhole) (hc0 : cond0_0 i) (hc1 : ¬cond0_1 i) (x0 : Vec F S1024x4096 .f32) (x1 : Vec F S256x4096 .f32) (x2 : Vec F S1x256 .f32) (x3 : Vec F S32x256 .f32) (x4 : Vec F S1x32 .f32) (x5 : Vec F S1x32 .f32) (x6 : Vec F S1x1 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero origin, View.readCov_unit_zero _ origin]
  simp only [View.readAt_eq_ld, harg2.read_unread, harg3.read_unread,
    View.ld_unit_zero (S := S1024x4096) origin, View.ld_unit_zero (S := S256x4096) origin]

/-- At the last point of a row block the running matrix is updated exactly as at a middle point. -/
theorem scratch_C (c : Dev nD) (i : grid0.Coords) (arg2 : Memref sig .tc .vmem S1024x4096 .f32) (harg2 : arg2.IsWhole) (arg3 : Memref sig .tc .vmem S256x4096 .f32) (harg3 : arg3.IsWhole) (arg4 : Memref sig .tc .vmem S1x256 .f32) (harg4 : arg4.IsWhole) (arg5 : Memref sig .tc .vmem S32x256 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : cond0_1 i) (x0 : Vec F S1024x4096 .f32) (x1 : Vec F S256x4096 .f32) (x2 : Vec F S1x256 .f32) (x3 : Vec F S32x256 .f32) (x4 : Vec F S1x32 .f32) (x5 : Vec F S1x32 .f32) (x6 : Vec F S1x1 .f32) (xs0 : Vec F S1024x256 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero origin]
  simp only [View.readAt_eq_ld, harg2.read_unread, harg3.read_unread, harg10.read_unread,
    View.ld_unit_zero (S := S1024x4096) origin, View.ld_unit_zero (S := S256x4096) origin, View.ld_unit_zero (S := S1024x256) origin]

/-- At the last point of a row block the output block is the two later layers applied to the running matrix
    as that same point has just updated it. -/
theorem out_C (c : Dev nD) (i : grid0.Coords) (arg2 : Memref sig .tc .vmem S1024x4096 .f32) (harg2 : arg2.IsWhole) (arg3 : Memref sig .tc .vmem S256x4096 .f32) (harg3 : arg3.IsWhole) (arg4 : Memref sig .tc .vmem S1x256 .f32) (harg4 : arg4.IsWhole) (arg5 : Memref sig .tc .vmem S32x256 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x1 .f32) (harg8 : arg8.IsWhole) (arg9 : Memref sig .tc .vmem S1024x1 .f32) (harg9 : arg9.IsWhole) (arg10 : Memref sig .tc .vmem S1024x256 .f32) (harg10 : arg10.IsWhole) (hc0 : ¬cond0_0 i) (hc1 : cond0_1 i) (x0 : Vec F S1024x4096 .f32) (x1 : Vec F S256x4096 .f32) (x2 : Vec F S1x256 .f32) (x3 : Vec F S32x256 .f32) (x4 : Vec F S1x32 .f32) (x5 : Vec F S1x32 .f32) (x6 : Vec F S1x1 .f32) (xs0 : Vec F S1024x256 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 (k0_pay2 x0 x1 xs0) x2 x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero origin, View.readCov_unit_zero _ origin]
  simp only [View.readAt_eq_ld, harg2.read_unread, harg3.read_unread, harg4.read_unread, harg5.read_unread,
    harg6.read_unread, harg7.read_unread, harg8.read_unread, harg10.read_unread,
    View.ld_unit_zero (S := S1024x4096) origin, View.ld_unit_zero (S := S256x4096) origin, View.ld_unit_zero (S := S1024x256) origin,
    View.ld_unit_zero (S := S1x256) origin, View.ld_unit_zero (S := S32x256) origin, View.ld_unit_zero (S := S1x32) origin,
    View.ld_unit_zero (S := S1x1) origin]

end Cert.KernelIdeal.Pieces
end
-- ==== Proof.EntryReads.lean ====
/-
  Matrix operations read at one entry, on the extended reals.

  A matrix product accumulated into the zero matrix has, at entry (a, b), the sum over the contracted
  coordinate c of A(a, c) · B(c, b); a transposed matrix has entry (b, a) at (a, b); a row repeated down the
  rows of a matrix has the row's entry of the same column everywhere; and a vector seen as a one-row matrix
  has its entry c at (0, c). Sizes are arbitrary, so each fact serves every layer of a network.
-/
import Idealize.ShloMosaic.Lib.ValueIdx
import Idealize.ShloMosaic.Lib.Pipeline.Value
import Idealize.ShloMosaic.PureOps.Ideal.Laws

noncomputable section
namespace Cert.EntryReads

open Idealize.ShloMosaic Idealize.ShloMosaic.ValueIdx

/-- A product of an m×k by a k×n matrix into the zero matrix, for any description of the contraction that
    pairs the left operand's columns with the right operand's rows (the four coordinate facts), at entry (a, b):
    the sum over c of A(a, c) · B(c, b). -/
theorem matmul_zero_entry {m k n : Nat} {φ₁ φ₂ : FTy} (d : DotDims ⟨2, ![m, k]⟩ ⟨2, ![k, n]⟩ ⟨2, ![m, n]⟩)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (prec : Option ContractPrecision) (A : FVec Ideal ⟨2, ![m, k]⟩ φ₁) (B : FVec Ideal ⟨2, ![k, n]⟩ φ₂)
    (a : Fin m) (b : Fin n) :
    matmul (F := Ideal) d prec A B (constant (F := Ideal) ⟨2, ![m, n]⟩ .f32 0x00000000#32) (ix2 a b)
      = ∑ c : Fin k, A (ix2 a c) * B (ix2 c b) := by
  show FloatOps.matmul d prec A B _ (ix2 a b) = _
  rw [Ideal.matmul_constant_zero_apply, ← Equiv.sum_comp (contrEquiv1 d k hr hs).symm]
  refine Finset.sum_congr rfl fun c _ => ?_
  have hc := contrEquiv1_symm_val d k hr hs c
  have el : d.lhsIdx (ix2 a b) ((contrEquiv1 d k hr hs).symm c) = ix2 a c := funext fun ax => Fin.ext (by
    match ax with
    | ⟨0, _⟩ => exact hl0 _ _
    | ⟨1, _⟩ => exact (hl1 _ _).trans hc)
  have er : d.rhsIdx (ix2 a b) ((contrEquiv1 d k hr hs).symm c) = ix2 c b := funext fun ax => Fin.ext (by
    match ax with
    | ⟨0, _⟩ => exact (hr0 _ _).trans hc
    | ⟨1, _⟩ => exact hr1 _ _)
  rw [el, er]

/-- The transpose of an m×n matrix has, at (a, b), the matrix's entry (b, a). -/
theorem transpose_entry {m n : Nat} {α : Type} (x : (⟨2, ![m, n]⟩ : Shape).Idx → α)
    (h : (⟨2, ![m, n]⟩ : Shape).Transposes [1, 0] ⟨2, ![n, m]⟩) (a : Fin n) (b : Fin m) :
    transpose (⟨2, ![n, m]⟩ : Shape) [1, 0] x h (ix2 a b) = x (ix2 b a) :=
  transpose_apply [1, 0] x h _ (ix2 b a) (fun c => match c with
    | ⟨0, _⟩ => rfl
    | ⟨1, _⟩ => rfl)

/-- A one-row matrix repeated down m rows has, at (a, b), the row's entry b. -/
theorem repeatRow_entry {m n : Nat} {α : Type} (x : (⟨2, ![1, n]⟩ : Shape).Idx → α)
    (h : (⟨2, ![1, n]⟩ : Shape).Broadcasts ⟨2, ![m, n]⟩) (a : Fin m) (b : Fin n) :
    broadcastTo (⟨2, ![m, n]⟩ : Shape) x h (ix2 a b) = x (ix2 (0 : Fin 1) b) :=
  broadcastTo_apply x h _ (ix2 (0 : Fin 1) b) (fun c => match c with
    | ⟨0, _⟩ => by
      show 0 = if (1 : Nat) = 1 then 0 else _
      rw [if_pos rfl]
    | ⟨1, _⟩ => by
      show b.val = if n = 1 then 0 else b.val
      split
      · have := b.isLt; omega
      · rfl)

/-- A vector of n entries seen as a one-row matrix has its entry c at (0, c). -/
theorem asRow_entry {n : Nat} {α : Type} (x : (⟨1, ![n]⟩ : Shape).Idx → α)
    (h : (⟨1, ![n]⟩ : Shape).ShapeCasts ⟨2, ![1, n]⟩) (c : Fin n) :
    shapeCast (⟨2, ![1, n]⟩ : Shape) x h (ix2 (0 : Fin 1) c) = x (ix1 c) :=
  shapeCast_apply x h _ (ix1 c) (by
    rw [Shape.rowMajor_val_one, Shape.rowMajor_val_two]
    show c.val = 0 * n + c.val
    omega)

end Cert.EntryReads
end
-- ==== Proof.BlockSum.lean ====
/-
  Splitting a long sum into consecutive blocks.

  A sum over the `T * B` indices `0, 1, …, T*B - 1` is the sum, over the `T` blocks, of the sum over the `B`
  indices inside a block: index `B * a + b` is entry `b` of block `a`. This holds in any additive
  commutative monoid, so in particular on the extended reals, where no finiteness is needed: only
  commutativity and associativity of `+` are used.
-/
import Mathlib.Algebra.BigOperators.Fin
import Mathlib.Algebra.BigOperators.Group.Finset.Basic
import Mathlib.Logic.Equiv.Fin.Basic

namespace Cert.BlockSum

open Finset

/-- A sum over `Fin (T * B)` is the sum over the `T` blocks of the sums over the `B` entries of each block;
    entry `b` of block `a` is index `b + B * a`. -/
theorem sum_blocks {M : Type*} [AddCommMonoid M] (T B : ℕ) (f : Fin (T * B) → M) :
    ∑ i : Fin (T * B), f i = ∑ a : Fin T, ∑ b : Fin B, f (finProdFinEquiv (a, b)) := by
  rw [← Fintype.sum_prod_type' (fun a b => f (finProdFinEquiv (a, b)))]
  exact (Equiv.sum_comp finProdFinEquiv f).symm

/-- The index of entry `b` of block `a`, as a number. -/
theorem block_index_val (T B : ℕ) (a : Fin T) (b : Fin B) :
    ((finProdFinEquiv (a, b) : Fin (T * B)) : ℕ) = b.val + B * a.val := rfl

end Cert.BlockSum
-- ==== Proof.Spec.lean ====
/-
  The network both programs compute, entry by entry, on the extended reals.

  For a batch row r the first layer is h₁(c) = max(Σₖ X(r,k)·W₁(c,k) + b₁(c), 0) over the 98304 input features,
  the second h₂(j) = max(Σ_c h₁(c)·W₂(j,c) + b₂(j), 0), and the output Σ_j h₂(j)·W_out(0,j) + b_out(0).
  The last two layers are a function `head` of the 256 first-layer sums of the row alone. The long first-layer sum
  can be taken 4096 features at a time: it is the sum over the 24 blocks of the blocks' partial sums, by
  commutativity and associativity of addition only, so nothing needs to be finite.
-/
import Idealize.ShloMosaic.Lib.ValueIdx
import proofs.«168163_j68685116998140_1_alg».proof.Proof.BlockSum

noncomputable section
namespace Cert.Mlp

open Idealize.ShloMosaic Idealize.ShloMosaic.ValueIdx

/-- A matrix of extended reals, by its two sizes. -/
abbrev Mat (r c : Nat) : Type := (⟨2, ![r, c]⟩ : Shape).Idx → EReal
/-- A vector of extended reals. -/
abbrev Vect (n : Nat) : Type := (⟨1, ![n]⟩ : Shape).Idx → EReal

/-- The first layer's sum for batch row r and hidden unit c, before the bias. -/
def dot1 (X : Mat 2048 98304) (W1 : Mat 256 98304) (r : Fin 2048) (c : Fin 256) : EReal :=
  ∑ k : Fin 98304, X (ix2 r k) * W1 (ix2 c k)

/-- The two later layers and the first layer's bias and clamp, as a function of the row's 256 first-layer sums. -/
def head (b1 : Vect 256) (W2 : Mat 32 256) (b2 : Vect 32) (Wout : Mat 1 32) (bout : Vect 1) (d : Fin 256 → EReal) : EReal :=
  (∑ j : Fin 32, max ((∑ c : Fin 256, max (d c + b1 (ix1 c)) 0 * W2 (ix2 j c)) + b2 (ix1 j)) 0 * Wout (ix2 (0 : Fin 1) j))
    + bout (ix1 (0 : Fin 1))

/-- The network's output column. -/
def out (X : Mat 2048 98304) (W1 : Mat 256 98304) (b1 : Vect 256) (W2 : Mat 32 256) (b2 : Vect 32) (Wout : Mat 1 32)
    (bout : Vect 1) : Mat 2048 1 :=
  fun i => head b1 W2 b2 Wout bout (fun c => dot1 X W1 (i 0) c)

/-- Feature b of block s. -/
def feature (s : Fin 24) (b : Fin 4096) : Fin 98304 := ⟨4096 * s.val + b.val, by have := s.isLt; have := b.isLt; omega⟩

/-- Block s's share of the first layer's sum. -/
def blockDot (X : Mat 2048 98304) (W1 : Mat 256 98304) (r : Fin 2048) (c : Fin 256) (s : Fin 24) : EReal :=
  ∑ b : Fin 4096, X (ix2 r (feature s b)) * W1 (ix2 c (feature s b))

/-- The first layer's sum is the sum of its 24 blocks' shares. -/
theorem dot1_blocks (X : Mat 2048 98304) (W1 : Mat 256 98304) (r : Fin 2048) (c : Fin 256) :
    dot1 X W1 r c = ∑ s : Fin 24, blockDot X W1 r c s := by
  unfold dot1 blockDot
  refine (Cert.BlockSum.sum_blocks 24 4096 (fun k : Fin (24 * 4096) => X (ix2 r k) * W1 (ix2 c k))).trans ?_
  refine Finset.sum_congr rfl fun s _ => Finset.sum_congr rfl fun b _ => ?_
  have e : (finProdFinEquiv (s, b) : Fin (24 * 4096)) = feature s b :=
    Fin.ext (by show b.val + 4096 * s.val = 4096 * s.val + b.val; omega)
  rw [e]

end Cert.Mlp
end
-- ==== Proof.Payloads.lean ====
/-
  The body's three stored values, read at one entry on the extended reals.

  The zero matrix is 0 everywhere. The updated running matrix has, at (a, c), the old entry plus
  Σ_b x(a, b)·w(c, b) over the 4096 features of the point's block: the weights are transposed before the product,
  and the narrowing of the operands to a shorter float format changes nothing on the extended reals. The output
  block has, at (a, 0), the two later layers applied to row a of the running matrix.
-/
import proofs.«168163_j68685116998140_1_alg».proof.Proof.Gen.KernelIdeal.Skeleton
import proofs.«168163_j68685116998140_1_alg».proof.Proof.EntryReads
import proofs.«168163_j68685116998140_1_alg».proof.Proof.Spec

noncomputable section
namespace Cert.KernelIdeal.Payloads
open Cert.KernelIdeal Cert.KernelIdeal.Gen
open Idealize.ShloMosaic Idealize.ShloMosaic.ValueIdx Cert.EntryReads

/-- The first product pairs the left operand's columns with the right operand's rows: the four coordinates. -/
theorem first_l0 (j : S1024x256.Idx) (q : dot_S1024x4096_S4096x256_S1024x256_1_0_0_1_n_n.contr.Idx) : (dot_S1024x4096_S4096x256_S1024x256_1_0_0_1_n_n.lhsIdx j q 0).val = (j 0).val := by
  unfold DotDims.lhsIdx
  rw [dif_neg (show ¬(0 : Fin S1024x4096.rank) ∈ dot_S1024x4096_S4096x256_S1024x256_1_0_0_1_n_n.lhsBatch by decide), dif_pos (show (0 : Fin S1024x4096.rank) ∈ dot_S1024x4096_S4096x256_S1024x256_1_0_0_1_n_n.lhsNonContracting by decide)]
  rfl
theorem first_l1 (j : S1024x256.Idx) (q : dot_S1024x4096_S4096x256_S1024x256_1_0_0_1_n_n.contr.Idx) : (dot_S1024x4096_S4096x256_S1024x256_1_0_0_1_n_n.lhsIdx j q 1).val = (q ⟨0, by decide⟩).val :=
  dot_S1024x4096_S4096x256_S1024x256_1_0_0_1_n_n.lhsIdx_val_of_single rfl j q
theorem first_r0 (j : S1024x256.Idx) (q : dot_S1024x4096_S4096x256_S1024x256_1_0_0_1_n_n.contr.Idx) : (dot_S1024x4096_S4096x256_S1024x256_1_0_0_1_n_n.rhsIdx j q 0).val = (q ⟨0, by decide⟩).val :=
  dot_S1024x4096_S4096x256_S1024x256_1_0_0_1_n_n.rhsIdx_val_of_single rfl j q
theorem first_r1 (j : S1024x256.Idx) (q : dot_S1024x4096_S4096x256_S1024x256_1_0_0_1_n_n.contr.Idx) : (dot_S1024x4096_S4096x256_S1024x256_1_0_0_1_n_n.rhsIdx j q 1).val = (j 1).val := by
  unfold DotDims.rhsIdx
  rw [dif_neg (show ¬(1 : Fin S4096x256.rank) ∈ dot_S1024x4096_S4096x256_S1024x256_1_0_0_1_n_n.rhsBatch by decide), dif_pos (show (1 : Fin S4096x256.rank) ∈ dot_S1024x4096_S4096x256_S1024x256_1_0_0_1_n_n.rhsNonContracting by decide)]
  rfl

/-- The second product pairs the left operand's columns with the right operand's rows: the four coordinates. -/
theorem second_l0 (j : S1024x32.Idx) (q : dot_S1024x256_S256x32_S1024x32_1_0_0_1_n_n.contr.Idx) : (dot_S1024x256_S256x32_S1024x32_1_0_0_1_n_n.lhsIdx j q 0).val = (j 0).val := by
  unfold DotDims.lhsIdx
  rw [dif_neg (show ¬(0 : Fin S1024x256.rank) ∈ dot_S1024x256_S256x32_S1024x32_1_0_0_1_n_n.lhsBatch by decide), dif_pos (show (0 : Fin S1024x256.rank) ∈ dot_S1024x256_S256x32_S1024x32_1_0_0_1_n_n.lhsNonContracting by decide)]
  rfl
theorem second_l1 (j : S1024x32.Idx) (q : dot_S1024x256_S256x32_S1024x32_1_0_0_1_n_n.contr.Idx) : (dot_S1024x256_S256x32_S1024x32_1_0_0_1_n_n.lhsIdx j q 1).val = (q ⟨0, by decide⟩).val :=
  dot_S1024x256_S256x32_S1024x32_1_0_0_1_n_n.lhsIdx_val_of_single rfl j q
theorem second_r0 (j : S1024x32.Idx) (q : dot_S1024x256_S256x32_S1024x32_1_0_0_1_n_n.contr.Idx) : (dot_S1024x256_S256x32_S1024x32_1_0_0_1_n_n.rhsIdx j q 0).val = (q ⟨0, by decide⟩).val :=
  dot_S1024x256_S256x32_S1024x32_1_0_0_1_n_n.rhsIdx_val_of_single rfl j q
theorem second_r1 (j : S1024x32.Idx) (q : dot_S1024x256_S256x32_S1024x32_1_0_0_1_n_n.contr.Idx) : (dot_S1024x256_S256x32_S1024x32_1_0_0_1_n_n.rhsIdx j q 1).val = (j 1).val := by
  unfold DotDims.rhsIdx
  rw [dif_neg (show ¬(1 : Fin S256x32.rank) ∈ dot_S1024x256_S256x32_S1024x32_1_0_0_1_n_n.rhsBatch by decide), dif_pos (show (1 : Fin S256x32.rank) ∈ dot_S1024x256_S256x32_S1024x32_1_0_0_1_n_n.rhsNonContracting by decide)]
  rfl

/-- The third product pairs the left operand's columns with the right operand's rows: the four coordinates. -/
theorem third_l0 (j : S1024x1.Idx) (q : dot_S1024x32_S32x1_S1024x1_1_0_0_1_n_n.contr.Idx) : (dot_S1024x32_S32x1_S1024x1_1_0_0_1_n_n.lhsIdx j q 0).val = (j 0).val := by
  unfold DotDims.lhsIdx
  rw [dif_neg (show ¬(0 : Fin S1024x32.rank) ∈ dot_S1024x32_S32x1_S1024x1_1_0_0_1_n_n.lhsBatch by decide), dif_pos (show (0 : Fin S1024x32.rank) ∈ dot_S1024x32_S32x1_S1024x1_1_0_0_1_n_n.lhsNonContracting by decide)]
  rfl
theorem third_l1 (j : S1024x1.Idx) (q : dot_S1024x32_S32x1_S1024x1_1_0_0_1_n_n.contr.Idx) : (dot_S1024x32_S32x1_S1024x1_1_0_0_1_n_n.lhsIdx j q 1).val = (q ⟨0, by decide⟩).val :=
  dot_S1024x32_S32x1_S1024x1_1_0_0_1_n_n.lhsIdx_val_of_single rfl j q
theorem third_r0 (j : S1024x1.Idx) (q : dot_S1024x32_S32x1_S1024x1_1_0_0_1_n_n.contr.Idx) : (dot_S1024x32_S32x1_S1024x1_1_0_0_1_n_n.rhsIdx j q 0).val = (q ⟨0, by decide⟩).val :=
  dot_S1024x32_S32x1_S1024x1_1_0_0_1_n_n.rhsIdx_val_of_single rfl j q
theorem third_r1 (j : S1024x1.Idx) (q : dot_S1024x32_S32x1_S1024x1_1_0_0_1_n_n.contr.Idx) : (dot_S1024x32_S32x1_S1024x1_1_0_0_1_n_n.rhsIdx j q 1).val = (j 1).val := by
  unfold DotDims.rhsIdx
  rw [dif_neg (show ¬(1 : Fin S32x1.rank) ∈ dot_S1024x32_S32x1_S1024x1_1_0_0_1_n_n.rhsBatch by decide), dif_pos (show (1 : Fin S32x1.rank) ∈ dot_S1024x32_S32x1_S1024x1_1_0_0_1_n_n.rhsNonContracting by decide)]
  rfl

/-- The zero matrix has 0 at every entry. -/
theorem zeros_entry (a : Fin 1024) (c : Fin 256) : k0_pay1 (F := Ideal) (ix2 a c) = 0 := by
  unfold k0_pay1
  simp only [shapeCast_self]
  exact Ideal.ofBits_zero_f32

/-- The updated running matrix at (a, c): the old entry plus the block's share of the first layer's sum. -/
theorem accumulate_entry (x0 : Vec Ideal S1024x4096 .f32) (x1 : Vec Ideal S256x4096 .f32) (acc : Vec Ideal S1024x256 .f32)
    (a : Fin 1024) (c : Fin 256) :
    k0_pay2 x0 x1 acc (ix2 a c) = acc (ix2 a c) + ∑ b : Fin 4096, x0 (ix2 a b) * x1 (ix2 c b) := by
  unfold k0_pay2
  simp only [shapeCast_self]
  refine congrArg (acc (ix2 a c) + ·) ?_
  refine (matmul_zero_entry dot_S1024x4096_S4096x256_S1024x256_1_0_0_1_n_n rfl rfl first_l0 first_l1 first_r0 first_r1 none _ _ a c).trans ?_
  refine Finset.sum_congr rfl fun b _ => ?_
  rw [transpose_entry]
  rfl

/-- The output block at (a, 0): the later layers applied to row a of the running matrix, with the biases as the
    one-row matrices the body loads. -/
theorem output_entry (acc : Vec Ideal S1024x256 .f32) (b1 : Vec Ideal S1x256 .f32) (W2 : Vec Ideal S32x256 .f32)
    (b2 : Vec Ideal S1x32 .f32) (Wout : Vec Ideal S1x32 .f32) (bout : Vec Ideal S1x1 .f32) (a : Fin 1024) (z : Fin 1) :
    k0_pay3 acc b1 W2 b2 Wout bout (ix2 a z)
      = (∑ j : Fin 32, max ((∑ c : Fin 256, max (acc (ix2 a c) + b1 (ix2 (0 : Fin 1) c)) 0 * W2 (ix2 j c)) + b2 (ix2 (0 : Fin 1) j)) 0
            * Wout (ix2 z j)) + bout (ix2 (0 : Fin 1) z) := by
  have hz0 : (FloatOps.ofBits (F := Ideal) .f32 0x00000000#32) = (0 : EReal) := Ideal.ofBits_zero_f32
  unfold k0_pay3
  simp only [shapeCast_self]
  show matmul (F := Ideal) dot_S1024x32_S32x1_S1024x1_1_0_0_1_n_n none _ _ (constant (F := Ideal) S1024x1 .f32 0x00000000#32) (ix2 a z)
      + broadcastTo S1024x1 bout _ (ix2 a z) = _
  rw [repeatRow_entry, matmul_zero_entry dot_S1024x32_S32x1_S1024x1_1_0_0_1_n_n rfl rfl third_l0 third_l1 third_r0 third_r1]
  refine congrArg (· + bout (ix2 (0 : Fin 1) z)) (Finset.sum_congr rfl fun j _ => ?_)
  rw [transpose_entry]
  show max (matmul (F := Ideal) dot_S1024x256_S256x32_S1024x32_1_0_0_1_n_n none _ _ (constant (F := Ideal) S1024x32 .f32 0x00000000#32) (ix2 a j)
      + broadcastTo S1024x32 b2 _ (ix2 a j)) (FloatOps.ofBits (F := Ideal) .f32 0x00000000#32) * Wout (ix2 z j) = _
  rw [repeatRow_entry, matmul_zero_entry dot_S1024x256_S256x32_S1024x32_1_0_0_1_n_n rfl rfl second_l0 second_l1 second_r0 second_r1, hz0]
  refine congrArg (fun s => max (s + b2 (ix2 (0 : Fin 1) j)) 0 * Wout (ix2 z j)) (Finset.sum_congr rfl fun c _ => ?_)
  rw [transpose_entry]
  show max (acc (ix2 a c) + broadcastTo S1024x256 b1 _ (ix2 a c)) 0 * W2 (ix2 j c) = _
  rw [repeatRow_entry]

end Cert.KernelIdeal.Payloads
end
-- ==== Proof.Blocks.lean ====
/-
  What each input block holds, entry by entry, in terms of the arguments.

  Grid point t is row block t / 24 and feature block t % 24. The inputs' block is rows 1024·(t/24) … of X and
  features 4096·(t%24) … ; the first-layer weights' block is all 256 rows and the same features; the other five
  inputs are whole small arrays, three of them (the biases) vectors that were first laid out as one-row matrices.
-/
import proofs.«168163_j68685116998140_1_alg».proof.Proof.Gen.KernelIdeal.Frame
import Idealize.ShloMosaic.Lib.Pipeline.Value
import Idealize.ShloMosaic.Lib.StableHlo.Run
import proofs.«168163_j68685116998140_1_alg».proof.Proof.EntryReads

noncomputable section
namespace Cert.KernelIdeal.Blocks
open Cert.KernelIdeal Cert.KernelIdeal.Gen
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-- Which block of each array a grid point works on: the row block t / 24 and the feature block t % 24 for the two
    large inputs and the output, block 0 for everything else. -/
theorem index_facts : ∀ t : Fin cfg0.N,
    win0_0.index t (0 : Fin 2) = t.val / 24 ∧ win0_0.index t (1 : Fin 2) = t.val % 24
    ∧ win0_1.index t (0 : Fin 2) = 0 ∧ win0_1.index t (1 : Fin 2) = t.val % 24
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 24 ∧ win0_7.index t (1 : Fin 2) = 0 :=
  (by decide +kernel : ∀ t : Fin grid0.N, _)

/-- The inputs' block: entry (a, b) is X at row 1024·(t/24) + a, feature 4096·(t%24) + b. -/
theorem x_block (c : Dev nD) (t : Fin cfg0.N) (a : Fin 1024) (b : Fin 4096) (r : Fin 2048) (k : Fin 98304)
    (hr : r.val = 1024 * (t.val / 24) + a.val) (hk : k.val = 4096 * (t.val % 24) + b.val) :
    (iblk m c 0 t : Vec F S1024x4096 .f32) (ix2 a b) = m ((c : Thread nD τ).loc main_arg0) (ix2 r k) := by
  obtain ⟨e0, e1, -⟩ := index_facts t
  unfold iblk
  rw [View.read_apply]
  show V m c main_arg0 _ = _
  rw [V_main_arg0]
  refine congrArg _ (funext fun ax => Fin.ext ?_)
  match ax with
  | ⟨0, _⟩ => show win0_0.index t (0 : Fin 2) * 1024 + 1 * a.val = r.val; rw [e0, hr]; omega
  | ⟨1, _⟩ => show win0_0.index t (1 : Fin 2) * 4096 + 1 * b.val = k.val; rw [e1, hk]; omega

/-- The first-layer weights' block: entry (u, b) is W₁ at hidden unit u, feature 4096·(t%24) + b. -/
theorem w1_block (c : Dev nD) (t : Fin cfg0.N) (u : Fin 256) (b : Fin 4096) (k : Fin 98304)
    (hk : k.val = 4096 * (t.val % 24) + b.val) :
    (iblk m c 1 t : Vec F S256x4096 .f32) (ix2 u b) = m ((c : Thread nD τ).loc main_arg1) (ix2 u k) := by
  obtain ⟨-, -, e0, e1, -⟩ := index_facts t
  unfold iblk
  rw [View.read_apply]
  show V m c main_arg1 _ = _
  rw [V_main_arg1]
  refine congrArg _ (funext fun ax => Fin.ext ?_)
  match ax with
  | ⟨0, _⟩ => show win0_1.index t (0 : Fin 2) * 256 + 1 * u.val = u.val; rw [e0]; omega
  | ⟨1, _⟩ => show win0_1.index t (1 : Fin 2) * 4096 + 1 * b.val = k.val; rw [e1, hk]; omega

/-- The first bias as the body loads it: entry (0, j) is b₁(j). -/
theorem b1_block (c : Dev nD) (t : Fin cfg0.N) (j : Fin 256) :
    (iblk m c 2 t : Vec F S1x256 .f32) (ix2 (0 : Fin 1) j) = m ((c : Thread nD τ).loc main_arg2) (ix1 j) := by
  obtain ⟨-, -, -, -, e0, e1, -⟩ := index_facts t
  unfold iblk
  rw [View.read_apply]
  show V m c main_v0 _ = _
  have e : (V m c main_v0 : S1x256.Idx → Elt F .f32) = shapeCast S1x256 (m ((c : Thread nD τ).loc main_arg2)) shapeCasts_S256_S1x256 := by
    dsimp only [V, hostOps0]; after_results; rfl
  rw [e]
  refine (congrArg _ (funext fun ax => Fin.ext ?_)).trans (Cert.EntryReads.asRow_entry _ _ j)
  match ax with
  | ⟨0, _⟩ => show win0_2.index t (0 : Fin 2) * 1 + 1 * 0 = 0; rw [e0]
  | ⟨1, _⟩ => show win0_2.index t (1 : Fin 2) * 256 + 1 * j.val = j.val; rw [e1]; omega

/-- The second layer's weights are loaded whole. -/
theorem w2_block (c : Dev nD) (t : Fin cfg0.N) (j : Fin 32) (u : Fin 256) :
    (iblk m c 3 t : Vec F S32x256 .f32) (ix2 j u) = m ((c : Thread nD τ).loc main_arg3) (ix2 j u) := by
  obtain ⟨-, -, -, -, -, -, e0, e1, -⟩ := index_facts t
  unfold iblk
  rw [View.read_apply]
  show V m c main_arg3 _ = _
  rw [V_main_arg3]
  refine congrArg _ (funext fun ax => Fin.ext ?_)
  match ax with
  | ⟨0, _⟩ => show win0_3.index t (0 : Fin 2) * 32 + 1 * j.val = j.val; rw [e0]; omega
  | ⟨1, _⟩ => show win0_3.index t (1 : Fin 2) * 256 + 1 * u.val = u.val; rw [e1]; omega

/-- The second bias as the body loads it: entry (0, j) is b₂(j). -/
theorem b2_block (c : Dev nD) (t : Fin cfg0.N) (j : Fin 32) :
    (iblk m c 4 t : Vec F S1x32 .f32) (ix2 (0 : Fin 1) j) = m ((c : Thread nD τ).loc main_arg4) (ix1 j) := by
  obtain ⟨-, -, -, -, -, -, -, -, e0, e1, -⟩ := index_facts t
  unfold iblk
  rw [View.read_apply]
  show V m c main_v1 _ = _
  have e : (V m c main_v1 : S1x32.Idx → Elt F .f32) = shapeCast S1x32 (m ((c : Thread nD τ).loc main_arg4)) shapeCasts_S32_S1x32 := by
    dsimp only [V, hostOps0]; after_results; rfl
  rw [e]
  refine (congrArg _ (funext fun ax => Fin.ext ?_)).trans (Cert.EntryReads.asRow_entry _ _ j)
  match ax with
  | ⟨0, _⟩ => show win0_4.index t (0 : Fin 2) * 1 + 1 * 0 = 0; rw [e0]
  | ⟨1, _⟩ => show win0_4.index t (1 : Fin 2) * 32 + 1 * j.val = j.val; rw [e1]; omega

/-- The output layer's weights are loaded whole. -/
theorem wout_block (c : Dev nD) (t : Fin cfg0.N) (j : Fin 32) :
    (iblk m c 5 t : Vec F S1x32 .f32) (ix2 (0 : Fin 1) j) = m ((c : Thread nD τ).loc main_arg5) (ix2 (0 : Fin 1) j) := by
  obtain ⟨-, -, -, -, -, -, -, -, -, -, e0, e1, -⟩ := index_facts t
  unfold iblk
  rw [View.read_apply]
  show V m c main_arg5 _ = _
  rw [V_main_arg5]
  refine congrArg _ (funext fun ax => Fin.ext ?_)
  match ax with
  | ⟨0, _⟩ => show win0_5.index t (0 : Fin 2) * 1 + 1 * 0 = 0; rw [e0]
  | ⟨1, _⟩ => show win0_5.index t (1 : Fin 2) * 32 + 1 * j.val = j.val; rw [e1]; omega

/-- The output bias as the body loads it: its one entry is b_out(0). -/
theorem bout_block (c : Dev nD) (t : Fin cfg0.N) :
    (iblk m c 6 t : Vec F S1x1 .f32) (ix2 (0 : Fin 1) (0 : Fin 1)) = m ((c : Thread nD τ).loc main_arg6) (ix1 (0 : Fin 1)) := by
  obtain ⟨-, -, -, -, -, -, -, -, -, -, -, -, e0, e1, -⟩ := index_facts t
  unfold iblk
  rw [View.read_apply]
  show V m c main_v2 _ = _
  have e : (V m c main_v2 : S1x1.Idx → Elt F .f32) = shapeCast S1x1 (m ((c : Thread nD τ).loc main_arg6)) shapeCasts_S1_S1x1 := by
    dsimp only [V, hostOps0]; after_results; rfl
  rw [e]
  refine (congrArg _ (funext fun ax => Fin.ext ?_)).trans (Cert.EntryReads.asRow_entry _ _ (0 : Fin 1))
  match ax with
  | ⟨0, _⟩ => show win0_6.index t (0 : Fin 2) * 1 + 1 * 0 = 0; rw [e0]
  | ⟨1, _⟩ => show win0_6.index t (1 : Fin 2) * 1 + 1 * 0 = 0; rw [e1]

end Cert.KernelIdeal.Blocks
end
-- ==== Proof.Scratch.lean ====
/-
  The running matrix after any grid point, as a sum of block shares.

  Within a row block the running matrix starts, at the block's first point, as zero plus that point's share, and
  every later point adds its own share; so after the point at offset j of the row block it is the sum of the
  shares of offsets 0 … j. A point's share at entry (a, u) is Σ_b X(row, feature)·W₁(u, feature) over the 4096
  features of the point's block. After the row block's last point, offset 23, the 24 shares add up to the whole
  first-layer sum of the row.
-/
import proofs.«168163_j68685116998140_1_alg».proof.Proof.Gen.KernelIdeal.Value
import proofs.«168163_j68685116998140_1_alg».proof.Proof.Pieces
import proofs.«168163_j68685116998140_1_alg».proof.Proof.Payloads
import proofs.«168163_j68685116998140_1_alg».proof.Proof.Blocks
import proofs.«168163_j68685116998140_1_alg».proof.Proof.Spec

noncomputable section
namespace Cert.KernelIdeal.Scratch
open Cert.KernelIdeal Cert.KernelIdeal.Gen Cert.KernelIdeal.Value
open Idealize.ShloMosaic Idealize.ShloMosaic.TcCoe Idealize.SL.Sem Idealize.ShloMosaic.ValueIdx

variable (m : (ℓ : Loc nD τ sig) → Buf (Elt Ideal) ℓ)

/-- At the first point of a row block the running matrix is set to zero plus the point's block product. -/
theorem first_point (c : Dev nD) (n : ℕ) (hb : n < cfg0.N) (acc : Vec Ideal S1024x256 .f32) (h0 : n % 24 = 0) :
    scAt0_0 m c n hb acc = k0_pay2 (iblk m c 0 (⟨n, hb⟩ : Fin cfg0.N)) (iblk m c 1 (⟨n, hb⟩ : Fin cfg0.N)) (k0_pay1 (F := Ideal)) := by
  unfold scAt0_0
  rw [dif_pos h0, dif_neg (by omega)]
  exact Pieces.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

/-- At every other point the point's block product is added to what the point before left. -/
theorem later_point (c : Dev nD) (n : ℕ) (hb : n < cfg0.N) (acc : Vec Ideal S1024x256 .f32) (h0 : ¬n % 24 = 0) :
    scAt0_0 m c n hb acc = k0_pay2 (iblk m c 0 (⟨n, hb⟩ : Fin cfg0.N)) (iblk m c 1 (⟨n, hb⟩ : Fin cfg0.N)) acc := by
  unfold scAt0_0
  rw [dif_neg h0]
  by_cases h1 : n % 24 = 23
  · rw [dif_pos h1]
    exact Pieces.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
  · rw [dif_neg h1]
    exact Pieces.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-- Row a of a block of inputs against row u of a block of weights: the sum over the block's 4096 features. -/
def rowProduct (x : S1024x4096.Idx → EReal) (w : S256x4096.Idx → EReal) (a : Fin 1024) (u : Fin 256) : EReal :=
  ∑ b : Fin 4096, x (ix2 a b) * w (ix2 u b)

/-- Point n's share at entry (a, u) of the running matrix: row a of the point's inputs against row u of its
    weights (nothing past the grid). -/
def share (c : Dev nD) (n : ℕ) (i : S1024x256.Idx) : EReal :=
  if h : n < cfg0.N then rowProduct (iblk m c 0 (⟨n, h⟩ : Fin cfg0.N)) (iblk m c 1 (⟨n, h⟩ : Fin cfg0.N)) (i 0) (i 1) else 0

/-- After point t the running matrix is the sum of the shares of the points of t's row block up to t. -/
theorem after_point (c : Dev nD) (t : Fin cfg0.N) (i : S1024x256.Idx) :
    (outsAt0 m c t.val t.isLt).2 i = 0 + ∑ s ∈ Finset.range (t.val % 24 + 1), share m c (24 * (t.val / 24) + s) i := by
  have hN : cfg0.N = 48 := N_0
  rw [soutsAt0_0_eq m c t]
  refine Pipeline.accAt_add_apply (fun n h => scAt0_0 m c n h (VS0_0.read (Elt Ideal) VS0_0.junk)) (scAt0_0 m c)
    (fun _ => (0 : EReal)) (share m c) (24 * (t.val / 24)) 23 ?_ ?_ (t.val % 24) (by omega) _ i
  · intro h i
    obtain ⟨a, u, rfl⟩ : ∃ (a : Fin 1024) (u : Fin 256), i = ix2 a u := ⟨i 0, i 1, eq_ix2 i⟩
    show scAt0_0 m c (24 * (t.val / 24)) h _ (ix2 a u) = _
    rw [first_point m c _ h _ (by omega)]
    refine (Payloads.accumulate_entry (iblk m c 0 ⟨_, h⟩) (iblk m c 1 ⟨_, h⟩) (k0_pay1 (F := Ideal)) a u).trans ?_
    rw [Payloads.zeros_entry]
    unfold share
    rw [dif_pos h]
    rfl
  · intro n h acc i h1 h2
    obtain ⟨a, u, rfl⟩ : ∃ (a : Fin 1024) (u : Fin 256), i = ix2 a u := ⟨i 0, i 1, eq_ix2 i⟩
    rw [later_point m c n h acc (by omega)]
    refine (Payloads.accumulate_entry (iblk m c 0 ⟨n, h⟩) (iblk m c 1 ⟨n, h⟩) acc a u).trans ?_
    unfold share
    rw [dif_pos h]
    rfl

/-- A point's share is its feature block's share of the row's first-layer sum. -/
theorem share_is_blockDot (c : Dev nD) (q : Fin 2) (s : Fin 24) (a : Fin 1024) (u : Fin 256) (r : Fin 2048)
    (hr : r.val = 1024 * q.val + a.val) :
    share m c (24 * q.val + s.val) (ix2 a u)
      = Cert.Mlp.blockDot (m ((c : Thread nD τ).loc main_arg0)) (m ((c : Thread nD τ).loc main_arg1)) r u s := by
  have hN : cfg0.N = 48 := N_0
  have hq := q.isLt
  have hs := s.isLt
  have hn : 24 * q.val + s.val < cfg0.N := by omega
  unfold share
  rw [dif_pos hn]
  unfold rowProduct Cert.Mlp.blockDot
  refine Finset.sum_congr rfl fun b _ => ?_
  have hb := b.isLt
  exact congrArg₂ (· * ·)
    (Blocks.x_block m c ⟨_, hn⟩ a b r (Cert.Mlp.feature s b) (by show r.val = 1024 * ((24 * q.val + s.val) / 24) + a.val; omega)
      (by show 4096 * s.val + b.val = 4096 * ((24 * q.val + s.val) % 24) + b.val; omega))
    (Blocks.w1_block m c ⟨_, hn⟩ u b (Cert.Mlp.feature s b)
      (by show 4096 * s.val + b.val = 4096 * ((24 * q.val + s.val) % 24) + b.val; omega))

/-- After the last point of a row block, entry (a, u) of the running matrix is the whole first-layer sum of
    the row and hidden unit. -/
theorem row_sums (c : Dev nD) (t : Fin cfg0.N) (h1 : t.val % 24 = 23) (a : Fin 1024) (u : Fin 256) (r : Fin 2048)
    (hr : r.val = 1024 * (t.val / 24) + a.val) :
    (outsAt0 m c t.val t.isLt).2 (ix2 a u)
      = Cert.Mlp.dot1 (m ((c : Thread nD τ).loc main_arg0)) (m ((c : Thread nD τ).loc main_arg1)) r u := by
  have hN : cfg0.N = 48 := N_0
  have ht := t.isLt
  rw [after_point m c t (ix2 a u), h1, zero_add, Finset.sum_range, Cert.Mlp.dot1_blocks]
  refine Finset.sum_congr rfl fun s _ => ?_
  exact share_is_blockDot m c ⟨t.val / 24, by omega⟩ s a u r hr

end Cert.KernelIdeal.Scratch
end
-- ==== Proof.Result.lean ====
/-
  The kernel's result array is the network's output column.

  The output is written back only after the last feature block of a row block (offset 23). What is written then is
  the two later layers applied to the running matrix, which by then holds the row block's complete first-layer
  sums; so the written block is rows 1024·q … 1024·q + 1023 of the network's output. The two row blocks cover all
  2048 rows, so the array ends holding the output column.
-/
import proofs.«168163_j68685116998140_1_alg».proof.Proof.Scratch

noncomputable section
namespace Cert.KernelIdeal.Result
open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The network's output column of the arguments as launched. -/
abbrev result (c : Dev nD) : Buf (Elt Ideal) ((c : Thread nD τ).loc main_v3) :=
  Cert.Mlp.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The running matrix after the last point of a row block is what that point stored: the matrix the point before
    left plus the point's block product. -/
theorem updated_matrix (c : Dev nD) (t : Fin cfg0.N) (h0 : ¬t.val % 24 = 0) (h1 : t.val % 24 = 23) :
    (outsAt0 m c t.val t.isLt).2 = k0_pay2 (iblk m c 0 t) (iblk m c 1 t) (outsAt0 m c (t.val - 1) (Nat.lt_of_le_of_lt (Nat.sub_le _ _) t.isLt)).2 := by
  rw [outsAt0_C m c t h0 h1]
  dsimp only
  exact Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- What a point that writes the output back writes: its row block of the network's output. -/
theorem flushed_eq (c : Dev nD) (t : Fin cfg0.N) (hf : (cfg0.win 7).flush t = true) :
    (dats m 0 c).flushed 7 t = ((cfg0.win 7).blk t).view.read (Elt Ideal) (result m c) := by
  have hN : cfg0.N = 48 := N_0
  have ht := t.isLt
  have h1 : t.val % 24 = 23 := (flush0_7 t).mp hf
  have h0 : ¬t.val % 24 = 0 := by omega
  obtain ⟨-, -, -, -, -, -, -, -, -, -, -, -, -, -, e0, e1⟩ := Blocks.index_facts t
  -- the running matrix this point reads back is the one it has just updated
  have hc0 : ¬cond0_0 (grid0.coords t) := fun h => h0 ((hcond0_0 t).mp h)
  have hc1 : cond0_1 (grid0.coords t) := (hcond0_1 t).mpr h1
  have hacc : k0_pay2 (iblk m c 0 t) (iblk m c 1 t) (outsAt0 m c (t.val - 1) (Nat.lt_of_le_of_lt (Nat.sub_le _ _) t.isLt)).2
      = (outsAt0 m c t.val t.isLt).2 := (updated_matrix m c t h0 h1).symm
  have hout : out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
      = k0_pay3 (outsAt0 m c t.val t.isLt).2 (iblk m c 2 t) (iblk m c 3 t) (iblk m c 4 t) (iblk m c 5 t) (iblk m c 6 t) :=
    (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).trans
      (congrArg (fun acc => k0_pay3 acc (iblk m c 2 t) (iblk m c 3 t) (iblk m c 4 t) (iblk m c 5 t) (iblk m c 6 t)) hacc)
  refine ((flushed7_C m c t h0 h1).trans (congrArg ((cfg0.win 7).cut (grid0.coords t)) hout)).trans ?_
  funext j
  obtain ⟨a, z, rfl⟩ : ∃ (a : Fin 1024) (z : Fin 1), j = ix2 a z := ⟨j 0, j 1, eq_ix2 j⟩
  obtain rfl : z = 0 := Subsingleton.elim _ _
  have ha := a.isLt
  let r : Fin 2048 := ⟨1024 * (t.val / 24) + a.val, by omega⟩
  have hemb : ((cfg0.win 7).blk t).view.emb (ix2 a (0 : Fin 1)) = ix2 r (0 : Fin 1) := by
    funext ax; apply Fin.ext
    match ax with
    | ⟨0, _⟩ => show win0_7.index t (0 : Fin 2) * 1024 + 1 * a.val = 1024 * (t.val / 24) + a.val; rw [e0]; omega
    | ⟨1, _⟩ => show win0_7.index t (1 : Fin 2) * 1 + 1 * 0 = 0; rw [e1]
  show k0_pay3 (outsAt0 m c t.val t.isLt).2 (iblk m c 2 t) (iblk m c 3 t) (iblk m c 4 t) (iblk m c 5 t) (iblk m c 6 t) (ix2 a (0 : Fin 1))
    = result m c (((cfg0.win 7).blk t).view.emb (ix2 a (0 : Fin 1)))
  rw [hemb]
  refine (Payloads.output_entry (outsAt0 m c t.val t.isLt).2 (iblk m c 2 t) (iblk m c 3 t) (iblk m c 4 t) (iblk m c 5 t) (iblk m c 6 t) a 0).trans ?_
  show _ = Cert.Mlp.head _ _ _ _ _ (fun u => Cert.Mlp.dot1 _ _ r u)
  unfold Cert.Mlp.head
  refine congrArg₂ (· + ·) (Finset.sum_congr rfl fun j _ => ?_) (Blocks.bout_block m c t)
  refine congrArg₂ (fun p w => max p 0 * w) ?_ (Blocks.wout_block m c t j)
  refine congrArg₂ (· + ·) (Finset.sum_congr rfl fun u _ => ?_) (Blocks.b2_block m c t j)
  refine congrArg₂ (fun p w => max p 0 * w) ?_ (Blocks.w2_block m c t j u)
  exact congrArg₂ (· + ·) (Scratch.row_sums m c t h1 a u r rfl) (Blocks.b1_block m c t u)

/-- An entry of the output array is in point t's block when its row is in the point's row block. -/
theorem mem_blk (t : Fin cfg0.N) (i : S2048x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v3).slice (win0_7.rect t)).set ↔ _
  rw [View.set_slice_whole, Rect.mem_set_unit]
  exact Iff.rfl

/-- Every row is written back by the last point of its row block. -/
theorem cover (i : S2048x1.Idx) : ∃ t : Fin cfg0.N, (cfg0.win 7).flush t = true ∧ i ∈ ((cfg0.win 7).blk t).view.set := by
  have hN : cfg0.N = 48 := N_0
  have hi0 : (i 0).val < 2048 := (i 0).isLt
  have hi1 : (i 1).val < 1 := (i 1).isLt
  have hlt : 24 * ((i 0).val / 1024) + 23 < cfg0.N := by omega
  refine ⟨⟨24 * ((i 0).val / 1024) + 23, hlt⟩, (flush0_7 _).mpr (by show (24 * ((i 0).val / 1024) + 23) % 24 = 23; omega), ?_⟩
  obtain ⟨-, -, -, -, -, -, -, -, -, -, -, -, -, -, e0, e1⟩ := Blocks.index_facts ⟨24 * ((i 0).val / 1024) + 23, hlt⟩
  rw [mem_blk]
  intro ax
  match ax with
  | ⟨0, _⟩ =>
    show win0_7.index _ (0 : Fin 2) * 1024 ≤ (i 0).val ∧ (i 0).val < win0_7.index _ (0 : Fin 2) * 1024 + 1024
    rw [e0]
    show (24 * ((i 0).val / 1024) + 23) / 24 * 1024 ≤ (i 0).val ∧ (i 0).val < (24 * ((i 0).val / 1024) + 23) / 24 * 1024 + 1024
    omega
  | ⟨1, _⟩ =>
    show win0_7.index _ (1 : Fin 2) * 1 ≤ (i 1).val ∧ (i 1).val < win0_7.index _ (1 : Fin 2) * 1 + 1
    rw [e1]
    omega

/-- After the run the output array holds the network's output column. -/
theorem final (c : Dev nD) : (dats m 0 c).arrAt 7 cfg0.N = result m c :=
  (dats m 0 c).arrAt_eq_of_cover 7 (result m c) (flushed_eq m c) cover

/-- Every run of the kernel ends with the output array at the network's output column and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Result
end
-- ==== Proof.RefValue.lean ====
/-
  The reference program computes the network of the specification.

  Read one operation at a time at an entry, the reference is: the product of X with the transposed first-layer
  weights (entry (r, c) sums X(r,k)·W₁(c,k) over all 98304 features), plus the bias repeated down the rows,
  clamped at 0 from below; the same twice more with the later layers' weights. That is the specification's
  `out`, term for term.
-/
import proofs.«168163_j68685116998140_1_alg».proof.Proof.Gen.ReferenceIdeal.Read
import proofs.«168163_j68685116998140_1_alg».proof.Proof.Spec

noncomputable section
namespace Cert.ReferenceIdeal.RefValue
open Cert.ReferenceIdeal Cert.ReferenceIdeal.Read
open Idealize.ShloMosaic Idealize.ShloMosaic.ValueIdx

/-- The reference's result, as a function of the seven arguments, is the network's output column. -/
theorem result_is_out (x0 : (⟨S2048x98304, .f32⟩ : BufTy).Contents (Elt Ideal)) (x1 : (⟨S256x98304, .f32⟩ : BufTy).Contents (Elt Ideal))
    (x2 : (⟨S256, .f32⟩ : BufTy).Contents (Elt Ideal)) (x3 : (⟨S32x256, .f32⟩ : BufTy).Contents (Elt Ideal))
    (x4 : (⟨S32, .f32⟩ : BufTy).Contents (Elt Ideal)) (x5 : (⟨S1x32, .f32⟩ : BufTy).Contents (Elt Ideal))
    (x6 : (⟨S1, .f32⟩ : BufTy).Contents (Elt Ideal)) :
    val_main_v16 (F := Ideal) x0 x1 x2 x3 x4 x5 x6 = Cert.Mlp.out x0 x1 x2 x3 x4 x5 x6 := by
  funext i
  obtain ⟨r, z, rfl⟩ : ∃ (r : Fin 2048) (z : Fin 1), i = ix2 r z := ⟨i 0, i 1, eq_ix2 i⟩
  obtain rfl : z = 0 := Subsingleton.elim _ _
  have e13l : ∀ k : Fin 32, lidx_main_v13 (ix2 r (0 : Fin 1)) k = ix2 r k := fun k =>
    funext fun a => Fin.ext (by match a with | ⟨0, _⟩ => rfl | ⟨1, _⟩ => rfl)
  have e13r : ∀ k : Fin 32, idx_main_v12 (ridx_main_v13 (ix2 r (0 : Fin 1)) k) = ix2 (0 : Fin 1) k := fun k =>
    funext fun a => Fin.ext (by match a with | ⟨0, _⟩ => rfl | ⟨1, _⟩ => rfl)
  have e15 : idx_main_v14 (idx_main_v15 (ix2 r (0 : Fin 1))) = ix1 (0 : Fin 1) :=
    funext fun a => Fin.ext (by match a with | ⟨0, _⟩ => rfl)
  have e9 : ∀ k : Fin 32, idx_main_v8 (idx_main_v9 (ix2 r k)) = ix1 k := fun k =>
    funext fun a => Fin.ext (by match a with | ⟨0, _⟩ => rfl)
  have e7l : ∀ (k : Fin 32) (c : Fin 256), lidx_main_v7 (ix2 r k) c = ix2 r c := fun k c =>
    funext fun a => Fin.ext (by match a with | ⟨0, _⟩ => rfl | ⟨1, _⟩ => rfl)
  have e7r : ∀ (k : Fin 32) (c : Fin 256), idx_main_v6 (ridx_main_v7 (ix2 r k) c) = ix2 k c := fun k c =>
    funext fun a => Fin.ext (by match a with | ⟨0, _⟩ => rfl | ⟨1, _⟩ => rfl)
  have e3 : ∀ c : Fin 256, idx_main_v2 (idx_main_v3 (ix2 r c)) = ix1 c := fun c =>
    funext fun a => Fin.ext (by match a with | ⟨0, _⟩ => rfl)
  have e1l : ∀ (c : Fin 256) (k : Fin 98304), lidx_main_v1 (ix2 r c) k = ix2 r k := fun c k =>
    funext fun a => Fin.ext (by match a with | ⟨0, _⟩ => rfl | ⟨1, _⟩ => rfl)
  have e1r : ∀ (c : Fin 256) (k : Fin 98304), idx_main_v0 (ridx_main_v1 (ix2 r c) k) = ix2 c k := fun c k =>
    funext fun a => Fin.ext (by match a with | ⟨0, _⟩ => rfl | ⟨1, _⟩ => rfl)
  simp only [val_main_v16_apply, val_main_v13_apply, val_main_v15_apply, val_main_v14_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_call0_v0_apply, val_main_call0_cst_apply, val_main_call1_v0_apply, val_main_call1_cst_apply,
    e13l, e13r, e15, e9, e7l, e7r, e3, e1l, e1r, Ideal.addf_def, Ideal.maximumf_def, Ideal.ofBits_def, Ideal.ofBits_zero_f32]
  rfl

end Cert.ReferenceIdeal.RefValue
end
-- ==== Proof.lean ====
/-
  A three-layer perceptron, out = W_out·relu(W₂·relu(W₁·x + b₁) + b₂) + b_out, on a batch of 2048 rows with
  98304 input features: the kernel against the plain reference, on the extended reals.

  The kernel walks a 2 × 24 grid: two blocks of 1024 rows, and for each of them the 24 blocks of 4096 features in
  turn. It keeps a running 1024 × 256 matrix between points — zero at a row block's first point, plus each point's
  block product Σ_b X(row, feature)·W₁(unit, feature) — and at the row block's last point applies the two small
  later layers to it and writes the 1024 outputs. The reference forms each first-layer sum over all 98304 features
  at once. The two agree because a sum over 24·4096 terms is the sum of its 24 blocks' sums, which needs only
  that addition is commutative and associative, so the finiteness of the inputs is never used; narrowing the
  operands to a shorter float format before each product is the identity on the extended reals; and the later
  layers, the biases (loaded as one-row matrices) and the clamp at zero are the same operations on both sides.

  The frames are the generated ones; the reference's run and its entry-by-entry reading are generated; written by
  hand are the specification, the entry reads of the body's stored values, the running matrix as a sum of block
  shares, the written-back block and the cover of the output by the two row blocks.
-/
import proofs.«168163_j68685116998140_1_alg».proof.Defs
import proofs.«168163_j68685116998140_1_alg».proof.Proof.Gen.Kernel
import proofs.«168163_j68685116998140_1_alg».proof.Proof.Gen.Kernel.Skeleton
import proofs.«168163_j68685116998140_1_alg».proof.Proof.Gen.Kernel.Launch
import proofs.«168163_j68685116998140_1_alg».proof.Proof.Gen.Kernel.Points
import proofs.«168163_j68685116998140_1_alg».proof.Proof.Gen.Kernel.Frame
import proofs.«168163_j68685116998140_1_alg».proof.Proof.Gen.KernelIdeal
import proofs.«168163_j68685116998140_1_alg».proof.Proof.Gen.KernelIdeal.Skeleton
import proofs.«168163_j68685116998140_1_alg».proof.Proof.Gen.KernelIdeal.Launch
import proofs.«168163_j68685116998140_1_alg».proof.Proof.Gen.KernelIdeal.Points
import proofs.«168163_j68685116998140_1_alg».proof.Proof.Gen.KernelIdeal.Frame
import proofs.«168163_j68685116998140_1_alg».proof.Proof.Gen.ReferenceIdeal
import proofs.«168163_j68685116998140_1_alg».proof.Proof.Gen.Pre_finite_inputs
import proofs.«168163_j68685116998140_1_alg».proof.Proof.Gen.KernelIdeal.Value
import proofs.«168163_j68685116998140_1_alg».proof.Proof.Gen.ReferenceIdeal.Run
import proofs.«168163_j68685116998140_1_alg».proof.Proof.Gen.ReferenceIdeal.Read
import proofs.«168163_j68685116998140_1_alg».proof.Proof.Result
import proofs.«168163_j68685116998140_1_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel's text was rewritten to read it on the extended reals. -/
theorem preserves : Cert.preserves_Kernel_KernelIdeal := trivial

/-- From arguments that agree, the kernel's output array and the reference's result are both the network's output
    column of those arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_is_out]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
